-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S64x128 .f32) (main_arg3 : FVec F S64 .f32) (main_arg4 : FVec F S1x64 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S128x64 : Shape := ⟨2, ![128, 64]⟩
abbrev S1700000x64 : Shape := ⟨2, ![1700000, 64]⟩
abbrev S64x1 : Shape := ⟨2, ![64, 1]⟩
abbrev S1x1 : Shape := ⟨2, ![1, 1]⟩

abbrev nBuf : Space → Nat
  | .hbm => 56
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x64, .bf16⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000x64, .bf16⟩
  | .hbm, ⟨31, _⟩ => ⟨S1700000x64, .f32⟩
  | .hbm, ⟨32, _⟩ => ⟨S_, .f32⟩
  | .hbm, ⟨33, _⟩ => ⟨S100000x64, .f32⟩
  | .hbm, ⟨34, _⟩ => ⟨S1700000x1, .i32⟩
  | .hbm, ⟨35, _⟩ => ⟨S100000x64, .f32⟩
  | .hbm, ⟨36, _⟩ => ⟨S1x64, .f32⟩
  | .hbm, ⟨37, _⟩ => ⟨S100000x1, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000x1, .f32⟩
  | .hbm, ⟨47, _⟩ => ⟨S_, .f32⟩
  | .hbm, ⟨48, _⟩ => ⟨S100000x1, .f32⟩
  | .hbm, ⟨49, _⟩ => ⟨S1700000x1, .i32⟩
  | .hbm, ⟨50, _⟩ => ⟨S100000x1, .f32⟩
  | .hbm, ⟨51, _⟩ => ⟨S100000x1, .f32⟩
  | .hbm, ⟨52, _⟩ => ⟨S1x1, .f32⟩
  | .hbm, ⟨53, _⟩ => ⟨S100000x1, .f32⟩
  | .hbm, ⟨54, _⟩ => ⟨S100000x1, .f32⟩
  | .hbm, ⟨55, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S64x128, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S1x64, .f32⟩
  | .local _ .vmem, ⟨10, _⟩ => ⟨S4000x1, .f32⟩
  | .local _ .vmem, ⟨11, _⟩ => ⟨S4000x1, .f32⟩
  | .local _ .vmem, ⟨12, _⟩ => ⟨S1x64, .f32⟩
  | .local _ .vmem, ⟨13, _⟩ => ⟨S4000x1, .f32⟩
  | .local _ .vmem, ⟨14, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  transposes_S1x64_p1_0_S64x1 : S1x64.Transposes [1, 0] S64x1
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x1_S4000x1_1_0_0_1_n_n_wf : DotDims.WF S4000x64 S64x1 S4000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S4000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S100000x64 : Shape := ⟨2, ![100000, 64]⟩
abbrev S1700000x64 : Shape := ⟨2, ![1700000, 64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S128x64, .f32⟩
  | .hbm, ⟨21, _⟩ => ⟨S100000x64, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x1, .f32⟩
  | .hbm, ⟨51, _⟩ => ⟨S1700000x64, .f32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S64x1, .f32⟩
  | .hbm, ⟨64, _⟩ => ⟨S100000x1, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S1700000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x1, .f32⟩
  | .hbm, ⟨93, _⟩ => ⟨S1700000x1, .f32⟩
  | .hbm, ⟨94, _⟩ => ⟨S1700000x1, .f32⟩
  | .hbm, ⟨95, _⟩ => ⟨S_, .f32⟩
  | .hbm, ⟨96, _⟩ => ⟨S100000x1, .f32⟩
  | .hbm, ⟨97, _⟩ => ⟨S1700000x1, .i32⟩
  | .hbm, ⟨98, _⟩ => ⟨S100000x1, .f32⟩
  | .hbm, ⟨99, _⟩ => ⟨S1x1, .f32⟩
  | .hbm, ⟨100, _⟩ => ⟨S100000x1, .f32⟩
  | .hbm, ⟨101, _⟩ => ⟨S100000x1, .f32⟩
  | .hbm, ⟨102, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.RunValue.lean ====
/-
  The idealized kernel's run with its RESULT named.

  The program is five segments: host operations, the first matrix-product region, host operations (the gather and
  the sum over edges), the second region, host operations (the second gather and sum, the last scaling and bias). Each
  segment hands the next the contents of every buffer; the last segment's contents are a fold `W5` through all five.
  The frame theorem keeps of that fold only that the arguments are unchanged; here the same run is read once more, keeping
  also that the result buffer ends at `W5` of it — the value every later module computes.
-/
import proofs.«168948_j36541581754948_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    segment's contents of it, and the argument arrays are as launched. -/
theorem run : θ_run defs (onTc (τ := τ) (main (F := F))) ⟨m, fun _ => 0, ρ⟩ (fun r => ∀ c : Dev nD,
      r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v41 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.KernelBlocks.lean ====
/-
  The two kernel bodies read at one element, at the ideal values.

  The first body takes a block of 4000 rows of `x`, all of `W1` and the rows' degree factors, and stores
  `(x · W1ᵀ) * dis`: element `(r, k)` is `(∑ q, x[r, q] * W1[k, q]) * dis[r]` (the roundings to bf16 are the identity on
  extended reals, the matrix unit's product into a zero accumulator is the plain sum). The second takes 4000 rows of the
  aggregated messages, the bias row, the degree factors and `W2`, and stores
  `(relu(agg * dis + b1) · W2ᵀ) * dis`: element `(r, 0)` is `(∑ k, max (agg[r, k] * dis[r] + b1[k]) 0 * W2[0, k]) * dis[r]`.
-/
import proofs.«168948_j36541581754948_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx Idealize.SL.Sem

/-! ## The layout operations of the bodies, at an index -/

/-- The transposed weights of the first body: element `(q, k)` is the weight `(k, q)`. -/
theorem transpose_w1_apply (v : FVec Ideal S64x128 .bf16) (q : Fin 128) (k : Fin 64) :
    transpose S128x64 [1, 0] v transposes_S64x128_p1_0_S128x64 (ix2 q k) = v (ix2 k q) :=
  transpose_apply _ _ _ _ _ (fun b => match b with | ⟨0, _⟩ => rfl | ⟨1, _⟩ => rfl)

/-- The transposed weights of the second body: element `(k, 0)` is the weight `(0, k)`. -/
theorem transpose_w2_apply (v : FVec Ideal S1x64 .bf16) (k : Fin 64) :
    transpose S64x1 [1, 0] v transposes_S1x64_p1_0_S64x1 (ix2 k (0 : Fin 1)) = v (ix2 (0 : Fin 1) k) :=
  transpose_apply _ _ _ _ _ (fun b => match b with | ⟨0, _⟩ => rfl | ⟨1, _⟩ => rfl)

/-- A column `[4000, 1]` broadcast along the rows' 64 entries: element `(r, k)` is the column's `(r, 0)`. -/
theorem bcast_col_apply (v : FVec Ideal S4000x1 .f32) (r : Fin 4000) (k : Fin 64) :
    broadcastTo S4000x64 v broadcasts_S4000x1_S4000x64 (ix2 r k) = v (ix2 r (0 : Fin 1)) :=
  broadcastTo_apply _ _ _ _ (fun a => match a with
    | ⟨0, _⟩ => by show r.val = if (4000 : Nat) = 1 then 0 else r.val; rw [if_neg (by decide)]
    | ⟨1, _⟩ => by show 0 = if (1 : Nat) = 1 then 0 else k.val; rw [if_pos rfl])

/-- A row `[1, 64]` broadcast down the 4000 rows: element `(r, k)` is the row's `(0, k)`. -/
theorem bcast_row_apply (v : FVec Ideal S1x64 .f32) (r : Fin 4000) (k : Fin 64) :
    broadcastTo S4000x64 v broadcasts_S1x64_S4000x64 (ix2 r k) = v (ix2 (0 : Fin 1) k) :=
  broadcastTo_apply _ _ _ _ (fun a => match a with
    | ⟨0, _⟩ => by show 0 = if (1 : Nat) = 1 then 0 else r.val; rw [if_pos rfl]
    | ⟨1, _⟩ => by show k.val = if (64 : Nat) = 1 then 0 else k.val; rw [if_neg (by decide)])

/-! ## The matrix products -/

theorem matmul0_lhs0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem matmul0_lhs1 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
theorem matmul0_rhs0 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
theorem matmul0_rhs1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The first body's product into a zero accumulator, at `(r, k)`: the sum over the 128 inputs. -/
theorem matmul0_apply (a : FVec Ideal S4000x128 .bf16) (b : FVec Ideal S128x64 .bf16) (r : Fin 4000) (k : Fin 64) :
    matmul dot_S4000x128_S128x64_S4000x64_1_0_0_1_n_n none a b (constant S4000x64 .f32 0x00000000#32) (ix2 r k)
      = ∑ q : Fin 128, a (ix2 r q) * b (ix2 q k) := by
  simp only [matmul]
  rw [Ideal.matmul_constant_zero_apply, ← Equiv.sum_comp (contrEquiv1 dot_S4000x128_S128x64_S4000x64_1_0_0_1_n_n 128 rfl rfl).symm]
  refine Finset.sum_congr rfl fun q _ => ?_
  have hq := contrEquiv1_symm_val dot_S4000x128_S128x64_S4000x64_1_0_0_1_n_n 128 rfl rfl q
  have el : dot_S4000x128_S128x64_S4000x64_1_0_0_1_n_n.lhsIdx (ix2 r k) ((contrEquiv1 dot_S4000x128_S128x64_S4000x64_1_0_0_1_n_n 128 rfl rfl).symm q) = ix2 r q :=
    funext fun c => Fin.ext (by
      match c with
      | ⟨0, _⟩ => exact matmul0_lhs0 _ _
      | ⟨1, _⟩ => exact (matmul0_lhs1 _ _).trans hq)
  have er : dot_S4000x128_S128x64_S4000x64_1_0_0_1_n_n.rhsIdx (ix2 r k) ((contrEquiv1 dot_S4000x128_S128x64_S4000x64_1_0_0_1_n_n 128 rfl rfl).symm q) = ix2 q k :=
    funext fun c => Fin.ext (by
      match c with
      | ⟨0, _⟩ => exact (matmul0_rhs0 _ _).trans hq
      | ⟨1, _⟩ => exact matmul0_rhs1 _ _)
  rw [el, er]

theorem matmul1_lhs0 (i : S4000x1.Idx) (q : dot_S4000x64_S64x1_S4000x1_1_0_0_1_n_n.contr.Idx) : (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem matmul1_lhs1 (i : S4000x1.Idx) (q : dot_S4000x64_S64x1_S4000x1_1_0_0_1_n_n.contr.Idx) : (dot_S4000x64_S64x1_S4000x1_1_0_0_1_n_n.lhsIdx i q 1).val = (q ⟨0, by decide⟩).val :=
  dot_S4000x64_S64x1_S4000x1_1_0_0_1_n_n.lhsIdx_val_of_single rfl i q
theorem matmul1_rhs0 (i : S4000x1.Idx) (q : dot_S4000x64_S64x1_S4000x1_1_0_0_1_n_n.contr.Idx) : (dot_S4000x64_S64x1_S4000x1_1_0_0_1_n_n.rhsIdx i q 0).val = (q ⟨0, by decide⟩).val :=
  dot_S4000x64_S64x1_S4000x1_1_0_0_1_n_n.rhsIdx_val_of_single rfl i q
theorem matmul1_rhs1 (i : S4000x1.Idx) (q : dot_S4000x64_S64x1_S4000x1_1_0_0_1_n_n.contr.Idx) : (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- The second body's product into a zero accumulator, at `(r, 0)`: the sum over the 64 hidden units. -/
theorem matmul1_apply (a : FVec Ideal S4000x64 .bf16) (b : FVec Ideal S64x1 .bf16) (r : Fin 4000) :
    matmul dot_S4000x64_S64x1_S4000x1_1_0_0_1_n_n none a b (constant S4000x1 .f32 0x00000000#32) (ix2 r (0 : Fin 1))
      = ∑ q : Fin 64, a (ix2 r q) * b (ix2 q (0 : Fin 1)) := by
  simp only [matmul]
  rw [Ideal.matmul_constant_zero_apply, ← Equiv.sum_comp (contrEquiv1 dot_S4000x64_S64x1_S4000x1_1_0_0_1_n_n 64 rfl rfl).symm]
  refine Finset.sum_congr rfl fun q _ => ?_
  have hq := contrEquiv1_symm_val dot_S4000x64_S64x1_S4000x1_1_0_0_1_n_n 64 rfl rfl q
  have el : dot_S4000x64_S64x1_S4000x1_1_0_0_1_n_n.lhsIdx (ix2 r (0 : Fin 1)) ((contrEquiv1 dot_S4000x64_S64x1_S4000x1_1_0_0_1_n_n 64 rfl rfl).symm q) = ix2 r q :=
    funext fun c => Fin.ext (by
      match c with
      | ⟨0, _⟩ => exact matmul1_lhs0 _ _
      | ⟨1, _⟩ => exact (matmul1_lhs1 _ _).trans hq)
  have er : dot_S4000x64_S64x1_S4000x1_1_0_0_1_n_n.rhsIdx (ix2 r (0 : Fin 1)) ((contrEquiv1 dot_S4000x64_S64x1_S4000x1_1_0_0_1_n_n 64 rfl rfl).symm q) = ix2 q (0 : Fin 1) :=
    funext fun c => Fin.ext (by
      match c with
      | ⟨0, _⟩ => exact (matmul1_rhs0 _ _).trans hq
      | ⟨1, _⟩ => exact matmul1_rhs1 _ _)
  rw [el, er]

/-! ## The bodies' stored values -/

/-- THE FIRST BODY at `(r, k)`: the row's product with the weights, scaled by the row's degree factor. -/
theorem pay0_apply (x0 : Vec Ideal S4000x128 .f32) (x1 : Vec Ideal S64x128 .f32) (x2 : Vec Ideal S4000x1 .f32)
    (r : Fin 4000) (k : Fin 64) :
    k0_pay1 x0 x1 x2 (ix2 r k) = (∑ q : Fin 128, x0 (ix2 r q) * x1 (ix2 k q)) * x2 (ix2 r (0 : Fin 1)) := by
  unfold k0_pay1
  simp only [truncf_apply, mulf_apply, shapeCast_self]
  rw [matmul0_apply, bcast_col_apply]
  refine congrArg (· * x2 (ix2 r (0 : Fin 1))) (Finset.sum_congr rfl fun q _ => ?_)
  rw [transpose_w1_apply]
  rfl

/-- THE SECOND BODY at `(r, 0)`: the rectified, biased, rescaled aggregate's product with the output weights, scaled by
    the row's degree factor. -/
theorem pay1_apply (v0 : Vec Ideal S4000x64 .f32) (v2 : Vec Ideal S4000x1 .f32) (v6 : Vec Ideal S1x64 .f32)
    (v13 : Vec Ideal S1x64 .f32) (v17 : Vec Ideal S4000x1 .f32) (r : Fin 4000) :
    k1_pay1 v0 v2 v6 v13 v17 (ix2 r (0 : Fin 1))
      = (∑ k : Fin 64, max (v0 (ix2 r k) * v2 (ix2 r (0 : Fin 1)) + v6 (ix2 (0 : Fin 1) k)) 0 * v13 (ix2 (0 : Fin 1) k))
        * v17 (ix2 r (0 : Fin 1)) := by
  unfold k1_pay1
  simp only [mulf_apply, shapeCast_self]
  rw [matmul1_apply]
  refine congrArg (· * v17 (ix2 r (0 : Fin 1))) (Finset.sum_congr rfl fun k _ => ?_)
  rw [transpose_w2_apply]
  simp only [truncf_apply, maximumf_apply, addf_apply, mulf_apply, broadcast_apply]
  rw [bcast_col_apply, bcast_row_apply]
  show max _ (Ideal.ofBits .f32 0x00000000#32) * _ = _
  rw [Ideal.ofBits_zero_f32]

end Cert.KernelIdeal.Blocks

end
-- ==== Proof.KernelArrays.lean ====
/-
  From blocks to arrays: what each of the two regions leaves in its output array, as one function of the arrays it
  was entered with.

  Both regions walk the 100000 nodes in 25 blocks of 4000 rows. Point `t` reads rows `4000 t … 4000 t + 3999` of its
  row-blocked operands and all of its small operands, and writes the same rows of its output; the 25 blocks tile
  the output, so the array ends holding, at every row `n`, the body's value for that row:
    first region   `(n, k) ↦ (∑ q, x[n, q] * W1[k, q]) * dis[n]`,
    second region  `(n, 0) ↦ (∑ k, max (agg[n, k] * dis[n] + b1[k]) 0 * W2[0, k]) * dis[n]`.
-/
import proofs.«168948_j36541581754948_2_alg».proof.Proof.Gen.KernelIdeal.Frame
import proofs.«168948_j36541581754948_2_alg».proof.Proof.KernelBlocks

set_option maxRecDepth 16384

noncomputable section

namespace Cert.KernelIdeal.Arrays

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The two layers' node-wise functions -/

/-- The first layer's transform at node `n`, hidden unit `k`, pre-scaled by the node's degree factor. -/
def scaledProduct (X : S100000x128.Idx → EReal) (W : S64x128.Idx → EReal) (D : S100000x1.Idx → EReal)
    (n : Fin 100000) (k : Fin 64) : EReal :=
  (∑ q : Fin 128, X (ix2 n q) * W (ix2 k q)) * D (ix2 n (0 : Fin 1))

/-- … as an array. -/
def scaledProductArr (X : S100000x128.Idx → EReal) (W : S64x128.Idx → EReal) (D : S100000x1.Idx → EReal) :
    S100000x64.Idx → EReal :=
  fun i => scaledProduct X W D ⟨(i 0).val, idx2_lt0 i⟩ ⟨(i 1).val, idx2_lt1 i⟩

theorem scaledProductArr_apply (X : S100000x128.Idx → EReal) (W : S64x128.Idx → EReal) (D : S100000x1.Idx → EReal)
    (n : Fin 100000) (k : Fin 64) : scaledProductArr X W D (ix2 n k) = scaledProduct X W D n k := rfl

/-- The second layer's transform at node `n`: the aggregate rescaled, biased and rectified, times the output weights,
    pre-scaled by the node's degree factor. -/
def scaledOutput (A : S100000x64.Idx → EReal) (B : S1x64.Idx → EReal) (D : S100000x1.Idx → EReal) (W : S1x64.Idx → EReal)
    (n : Fin 100000) : EReal :=
  (∑ k : Fin 64, max (A (ix2 n k) * D (ix2 n (0 : Fin 1)) + B (ix2 (0 : Fin 1) k)) 0 * W (ix2 (0 : Fin 1) k))
    * D (ix2 n (0 : Fin 1))

/-- … as an array. -/
def scaledOutputArr (A : S100000x64.Idx → EReal) (B : S1x64.Idx → EReal) (D : S100000x1.Idx → EReal) (W : S1x64.Idx → EReal) :
    S100000x1.Idx → EReal :=
  fun i => scaledOutput A B D W ⟨(i 0).val, idx2_lt0 i⟩

theorem scaledOutputArr_apply (A : S100000x64.Idx → EReal) (B : S1x64.Idx → EReal) (D : S100000x1.Idx → EReal)
    (W : S1x64.Idx → EReal) (n : Fin 100000) : scaledOutputArr A B D W (ix2 n (0 : Fin 1)) = scaledOutput A B D W n := rfl

variable (V : (c : Dev nD) → (b : Ref sig .tc) → Buf (Elt Ideal) ((c : Thread nD τ).loc b))

/-! ## The first region -/

/-- The printed index maps over the grid: the row-blocked windows sit at block `t`, the small ones at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Each window's block of the first region, read where its rectangle says. -/
theorem rd0_0 (c : Dev nD) (t : Fin cfg0.N) (y : S4000x128.Idx) :
    iblk0 V c 0 t y = (V c main_arg0 : S100000x128.Idx → EReal) (((cfg0.win 0).blk t).view.emb y) := rfl
theorem rd0_1 (c : Dev nD) (t : Fin cfg0.N) (y : S64x128.Idx) :
    iblk0 V c 1 t y = (V c main_arg2 : S64x128.Idx → EReal) (((cfg0.win 1).blk t).view.emb y) := rfl
theorem rd0_2 (c : Dev nD) (t : Fin cfg0.N) (y : S4000x1.Idx) :
    iblk0 V c 2 t y = (V c main_v12 : S100000x1.Idx → EReal) (((cfg0.win 2).blk t).view.emb y) := rfl

/-- What point `t` writes back is block `t` of the first layer's array. -/
theorem flushed0 (c : Dev nD) (t : Fin cfg0.N) :
    (dat0 V c).flushed 3 t = ((cfg0.win 3).blk t).view.read (Elt Ideal)
      (scaledProductArr (V c main_arg0) (V c main_arg2) (V c main_v12)) := by
  show (cfg0.win 3).cut (grid0.coords t) ((dat0 V c).after 3 t) = _
  rw [after0_3]
  unfold out0_3
  rw [View.canon_unit_zero hz]
  simp only [View.ld_unit_zero (S := S4000x128) hz, View.ld_unit_zero (S := S64x128) hz, View.ld_unit_zero (S := S4000x1) hz]
  obtain ⟨e0, e1, e2, e3, e4, e5, e6, e7⟩ := idx_facts0 t
  funext j
  obtain ⟨r, k, rfl⟩ : ∃ (r : Fin 4000) (k : Fin 64), j = ix2 r k := ⟨j 0, j 1, eq_ix2 j⟩
  refine (pay0_apply (iblk0 V c 0 t) (iblk0 V c 1 t) (iblk0 V c 2 t) r k).trans ?_
  have hr : (r : Nat) < 4000 := r.isLt
  have hk : (k : Nat) < 64 := k.isLt
  have h2 : ((cfg0.win 2).blk t).view.emb (ix2 r (0 : Fin 1))
      = ix2 (⟨((((cfg0.win 3).blk t).view.emb (ix2 r k)) 0).val, idx2_lt0 _⟩ : Fin 100000) (0 : Fin 1) := by
    funext a; apply Fin.ext
    match a with
    | ⟨0, _⟩ => show win0_2.index t (0 : Fin 2) * 4000 + 1 * r.val = win0_3.index t (0 : Fin 2) * 4000 + 1 * r.val; omega
    | ⟨1, _⟩ => show win0_2.index t (1 : Fin 2) * 1 + 1 * 0 = 0; omega
  have h0 : ∀ q : Fin 128, ((cfg0.win 0).blk t).view.emb (ix2 r q)
      = ix2 (⟨((((cfg0.win 3).blk t).view.emb (ix2 r k)) 0).val, idx2_lt0 _⟩ : Fin 100000) q := by
    intro q
    have hq : (q : Nat) < 128 := q.isLt
    funext a; apply Fin.ext
    match a with
    | ⟨0, _⟩ => show win0_0.index t (0 : Fin 2) * 4000 + 1 * r.val = win0_3.index t (0 : Fin 2) * 4000 + 1 * r.val; omega
    | ⟨1, _⟩ => show win0_0.index t (1 : Fin 2) * 128 + 1 * q.val = q.val; omega
  have h1 : ∀ q : Fin 128, ((cfg0.win 1).blk t).view.emb (ix2 k q)
      = ix2 (⟨((((cfg0.win 3).blk t).view.emb (ix2 r k)) 1).val, idx2_lt1 _⟩ : Fin 64) q := by
    intro q
    have hq : (q : Nat) < 128 := q.isLt
    funext a; apply Fin.ext
    match a with
    | ⟨0, _⟩ => show win0_1.index t (0 : Fin 2) * 64 + 1 * k.val = win0_3.index t (1 : Fin 2) * 64 + 1 * k.val; omega
    | ⟨1, _⟩ => show win0_1.index t (1 : Fin 2) * 128 + 1 * q.val = q.val; omega
  simp only [rd0_0, rd0_1, rd0_2, h0, h1, h2]
  rfl

/-- An index of the output array is in point `t`'s block iff each coordinate is in the block's range. -/
theorem mem_blk0 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v13).slice (win0_3.rect t)).set ↔ _
  rw [View.set_slice_whole, Rect.mem_set_unit]
  exact Iff.rfl

/-- THE FIRST REGION'S OUTPUT ARRAY: the first layer's transform of the arrays the region was entered with. -/
theorem final0 (c : Dev nD) :
    (dat0 V c).arrAt 3 cfg0.N = scaledProductArr (V c main_arg0) (V c main_arg2) (V c main_v12) :=
  (dat0 V c).arrAt_eq_of_cover 3 _ (fun t _ => flushed0 V c t) fun i => by
    have hi0 : (i 0).val < 100000 := idx2_lt0 i
    have hi1 : (i 1).val < 64 := idx2_lt1 i
    have hN : cfg0.N = 25 := N_0
    let t : Fin cfg0.N := ⟨(i 0).val / 4000, by rw [hN]; omega⟩
    obtain ⟨e0, e1, e2, e3, e4, e5, e6, e7⟩ := idx_facts0 t
    refine ⟨t, flush0_3 t, (mem_blk0 t i).mpr fun a => ?_⟩
    have ht : t.val = (i 0).val / 4000 := rfl
    match a with
    | ⟨0, _⟩ =>
      show win0_3.index t (0 : Fin 2) * 4000 ≤ (i 0).val ∧ (i 0).val < win0_3.index t (0 : Fin 2) * 4000 + 4000
      omega
    | ⟨1, _⟩ =>
      show win0_3.index t (1 : Fin 2) * 64 ≤ (i 1).val ∧ (i 1).val < win0_3.index t (1 : Fin 2) * 64 + 64
      omega

/-! ## The second region -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Each window's block of the second region, read where its rectangle says. -/
theorem rd1_0 (c : Dev nD) (t : Fin cfg1.N) (y : S4000x64.Idx) :
    iblk1 V c 0 t y = (V c main_v24 : S100000x64.Idx → EReal) (((cfg1.win 0).blk t).view.emb y) := rfl
theorem rd1_1 (c : Dev nD) (t : Fin cfg1.N) (y : S1x64.Idx) :
    iblk1 V c 1 t y = (V c main_v25 : S1x64.Idx → EReal) (((cfg1.win 1).blk t).view.emb y) := rfl
theorem rd1_2 (c : Dev nD) (t : Fin cfg1.N) (y : S4000x1.Idx) :
    iblk1 V c 2 t y = (V c main_v12 : S100000x1.Idx → EReal) (((cfg1.win 2).blk t).view.emb y) := rfl
theorem rd1_3 (c : Dev nD) (t : Fin cfg1.N) (y : S1x64.Idx) :
    iblk1 V c 3 t y = (V c main_arg4 : S1x64.Idx → EReal) (((cfg1.win 3).blk t).view.emb y) := rfl

/-- What point `t` writes back is block `t` of the second layer's array. -/
theorem flushed1 (c : Dev nD) (t : Fin cfg1.N) :
    (dat1 V c).flushed 4 t = ((cfg1.win 4).blk t).view.read (Elt Ideal)
      (scaledOutputArr (V c main_v24) (V c main_v25) (V c main_v12) (V c main_arg4)) := by
  show (cfg1.win 4).cut (grid1.coords t) ((dat1 V c).after 4 t) = _
  rw [after1_4]
  unfold out1_4
  rw [View.canon_unit_zero hz]
  simp only [View.ld_unit_zero (S := S4000x64) hz, View.ld_unit_zero (S := S1x64) hz, View.ld_unit_zero (S := S4000x1) hz]
  obtain ⟨e0, e1, e2, e3, e4, e5, e6, e7, e8, e9⟩ := idx_facts1 t
  funext j
  obtain ⟨r, z, rfl⟩ : ∃ (r : Fin 4000) (z : Fin 1), j = ix2 r z := ⟨j 0, j 1, eq_ix2 j⟩
  obtain rfl : z = 0 := Subsingleton.elim _ _
  refine (pay1_apply (iblk1 V c 0 t) (iblk1 V c 2 t) (iblk1 V c 1 t) (iblk1 V c 3 t) (iblk1 V c 2 t) r).trans ?_
  have hr : (r : Nat) < 4000 := r.isLt
  have h2 : ((cfg1.win 2).blk t).view.emb (ix2 r (0 : Fin 1))
      = ix2 (⟨((((cfg1.win 4).blk t).view.emb (ix2 r (0 : Fin 1))) 0).val, idx2_lt0 _⟩ : Fin 100000) (0 : Fin 1) := by
    funext a; apply Fin.ext
    match a with
    | ⟨0, _⟩ => show win1_2.index t (0 : Fin 2) * 4000 + 1 * r.val = win1_4.index t (0 : Fin 2) * 4000 + 1 * r.val; omega
    | ⟨1, _⟩ => show win1_2.index t (1 : Fin 2) * 1 + 1 * 0 = 0; omega
  have h0 : ∀ k : Fin 64, ((cfg1.win 0).blk t).view.emb (ix2 r k)
      = ix2 (⟨((((cfg1.win 4).blk t).view.emb (ix2 r (0 : Fin 1))) 0).val, idx2_lt0 _⟩ : Fin 100000) k := by
    intro k
    have hk : (k : Nat) < 64 := k.isLt
    funext a; apply Fin.ext
    match a with
    | ⟨0, _⟩ => show win1_0.index t (0 : Fin 2) * 4000 + 1 * r.val = win1_4.index t (0 : Fin 2) * 4000 + 1 * r.val; omega
    | ⟨1, _⟩ => show win1_0.index t (1 : Fin 2) * 64 + 1 * k.val = k.val; omega
  have h1 : ∀ k : Fin 64, ((cfg1.win 1).blk t).view.emb (ix2 (0 : Fin 1) k) = ix2 (0 : Fin 1) k := by
    intro k
    have hk : (k : Nat) < 64 := k.isLt
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h3 : ∀ k : Fin 64, ((cfg1.win 3).blk t).view.emb (ix2 (0 : Fin 1) k) = ix2 (0 : Fin 1) k := by
    intro k
    have hk : (k : Nat) < 64 := k.isLt
    funext a; apply Fin.ext
    match a with
    | ⟨0, _⟩ => show win1_3.index t (0 : Fin 2) * 1 + 1 * 0 = 0; omega
    | ⟨1, _⟩ => show win1_3.index t (1 : Fin 2) * 64 + 1 * k.val = k.val; omega
  simp only [rd1_0, rd1_1, rd1_2, rd1_3, h0, h1, h2, h3]
  rfl

theorem mem_blk1 (t : Fin cfg1.N) (i : S100000x1.Idx) :
    i ∈ ((cfg1.win 4).blk t).view.set ↔ ∀ a : Fin 2, win1_4.index t a * S4000x1.size a ≤ (i a).val
      ∧ (i a).val < win1_4.index t a * S4000x1.size a + S4000x1.size a := by
  show i ∈ ((View.whole main_v26).slice (win1_4.rect t)).set ↔ _
  rw [View.set_slice_whole, Rect.mem_set_unit]
  exact Iff.rfl

/-- THE SECOND REGION'S OUTPUT ARRAY: the second layer's transform of the arrays the region was entered with. -/
theorem final1 (c : Dev nD) :
    (dat1 V c).arrAt 4 cfg1.N = scaledOutputArr (V c main_v24) (V c main_v25) (V c main_v12) (V c main_arg4) :=
  (dat1 V c).arrAt_eq_of_cover 4 _ (fun t _ => flushed1 V c t) fun i => by
    have hi0 : (i 0).val < 100000 := idx2_lt0 i
    have hi1 : (i 1).val < 1 := idx2_lt1 i
    have hN : cfg1.N = 25 := N_1
    let t : Fin cfg1.N := ⟨(i 0).val / 4000, by rw [hN]; omega⟩
    obtain ⟨e0, e1, e2, e3, e4, e5, e6, e7, e8, e9⟩ := idx_facts1 t
    refine ⟨t, flush1_4 t, (mem_blk1 t i).mpr fun a => ?_⟩
    have ht : t.val = (i 0).val / 4000 := rfl
    match a with
    | ⟨0, _⟩ =>
      show win1_4.index t (0 : Fin 2) * 4000 ≤ (i 0).val ∧ (i 0).val < win1_4.index t (0 : Fin 2) * 4000 + 4000
      omega
    | ⟨1, _⟩ =>
      show win1_4.index t (1 : Fin 2) * 1 ≤ (i 1).val ∧ (i 1).val < win1_4.index t (1 : Fin 2) * 1 + 1
      omega

end Cert.KernelIdeal.Arrays

end
-- ==== Proof.KernelValue.lean ====
/-
  The idealized kernel's result as a function of its arguments.

  The buffers are followed through the five segments of the run. Before the first region the host computes, from the
  edge list alone, the starting nodes `src` and end nodes `dst` of the edges (the given edges, then one loop per
  node), the number of edges ending at each node, and its reciprocal square root `dis` as a column — by the same
  operations, in the same order, as the reference program, so they are stated here with the reference's own names for
  them. The first region leaves `(x · W1ᵀ) * dis`; the host gathers its rows at `src` and sums them into `dst`; the
  second region leaves `(relu(agg * dis + b1) · W2ᵀ) * dis`; the host gathers and sums again, scales by `dis` and adds
  `b2`.
-/
import proofs.«168948_j36541581754948_2_alg».proof.Proof.KernelArrays
import proofs.«168948_j36541581754948_2_alg».proof.Proof.Gen.ReferenceIdeal.Read
import Idealize.ShloMosaic.Lib.StableHlo.Run

set_option maxRecDepth 16384

noncomputable section

namespace Cert.KernelIdeal.HostValue

open Cert.KernelIdeal Cert.KernelIdeal.Gen Cert.KernelIdeal.Arrays
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Entering the first region -/

/-- The starting nodes of the edges. -/
theorem W1_src : W1 m ρ c (Proc.devRef .tc main_v3)
    = Cert.ReferenceIdeal.Read.val_main_v3 (F := Ideal) (m ((c.tc : Thread nD τ).loc main_arg1)) := by
  show StableHlo.after hostOps0 _ (Proc.devRef .tc main_v3) = _
  after_results
  rfl

/-- The end nodes of the edges. -/
theorem W1_dst : W1 m ρ c (Proc.devRef .tc main_v6)
    = Cert.ReferenceIdeal.Read.val_main_v6 (F := Ideal) (m ((c.tc : Thread nD τ).loc main_arg1)) := by
  show StableHlo.after hostOps0 _ (Proc.devRef .tc main_v6) = _
  after_results
  rfl

/-- The degree factors, as a column. -/
theorem W1_dis : W1 m ρ c (Proc.devRef .tc main_v12)
    = shapeCast S100000x1 (Cert.ReferenceIdeal.Read.val_main_v11 (F := Ideal) (m ((c.tc : Thread nD τ).loc main_arg1)))
        shapeCasts_S100000_S100000x1 := by
  show StableHlo.after hostOps0 _ (Proc.devRef .tc main_v12) = _
  after_results
  rfl

theorem W1_arg0 : W1 m ρ c (Proc.devRef .tc main_arg0) = m ((c.tc : Thread nD τ).loc main_arg0) := by
  show StableHlo.after hostOps0 _ (Proc.devRef .tc main_arg0) = _
  after_results
theorem W1_arg2 : W1 m ρ c (Proc.devRef .tc main_arg2) = m ((c.tc : Thread nD τ).loc main_arg2) := by
  show StableHlo.after hostOps0 _ (Proc.devRef .tc main_arg2) = _
  after_results
theorem W1_arg3 : W1 m ρ c (Proc.devRef .tc main_arg3) = m ((c.tc : Thread nD τ).loc main_arg3) := by
  show StableHlo.after hostOps0 _ (Proc.devRef .tc main_arg3) = _
  after_results
theorem W1_arg4 : W1 m ρ c (Proc.devRef .tc main_arg4) = m ((c.tc : Thread nD τ).loc main_arg4) := by
  show StableHlo.after hostOps0 _ (Proc.devRef .tc main_arg4) = _
  after_results
theorem W1_arg5 : W1 m ρ c (Proc.devRef .tc main_arg5) = m ((c.tc : Thread nD τ).loc main_arg5) := by
  show StableHlo.after hostOps0 _ (Proc.devRef .tc main_arg5) = _
  after_results

/-! ## The arrays of the run, named -/

/-- The degree factors, as a column. -/
def disCol : S100000x1.Idx → EReal :=
  shapeCast S100000x1 (Cert.ReferenceIdeal.Read.val_main_v11 (F := Ideal) (m ((c.tc : Thread nD τ).loc main_arg1)))
    shapeCasts_S100000_S100000x1

/-- The first region's output: the first layer's transform, pre-scaled. -/
def h1sArr : S100000x64.Idx → EReal :=
  scaledProductArr (m ((c.tc : Thread nD τ).loc main_arg0)) (m ((c.tc : Thread nD τ).loc main_arg2)) (disCol m c)

/-- Its rows gathered at the edges' starting nodes and summed into their end nodes. -/
def aggArr : S100000x64.Idx → EReal :=
  Host.scatterAdd (F := Ideal) scatter_S100000x64_S1700000x1_S1700000x64_1_0_0_1
    (broadcastInDim S100000x64 ![] bcast_S_S100000x64 (constant S_ .f32 0x00000000#32))
    (Cert.ReferenceIdeal.Read.val_main_v9 (F := Ideal) (m ((c.tc : Thread nD τ).loc main_arg1)))
    (extf .f32 (Host.gather gather_S100000x64_S1700000x1_S1700000x64_1_0_n_n_0_1_164 (h1sArr m c)
      (Cert.ReferenceIdeal.Read.val_main_v19 (F := Ideal) (m ((c.tc : Thread nD τ).loc main_arg1)))) bitsLt_bf16_f32)

/-- The first bias as a row. -/
def b1Row : S1x64.Idx → EReal := shapeCast S1x64 (m ((c.tc : Thread nD τ).loc main_arg3)) shapeCasts_S64_S1x64

/-- The second region's output: the second layer's transform, pre-scaled. -/
def h2sArr : S100000x1.Idx → EReal :=
  scaledOutputArr (aggArr m c) (b1Row m c) (disCol m c) (m ((c.tc : Thread nD τ).loc main_arg4))

/-- The program's result. -/
def resultArr : S100000.Idx → EReal :=
  shapeCast S100000
    (addf (F := Ideal) (mulf (disCol m c)
        (Host.scatterAdd scatter_S100000x1_S1700000x1_S1700000x1_1_0_0_1
          (broadcastInDim S100000x1 ![] bcast_S_S100000x1 (constant S_ .f32 0x00000000#32))
          (Cert.ReferenceIdeal.Read.val_main_v9 (F := Ideal) (m ((c.tc : Thread nD τ).loc main_arg1)))
          (Host.gather gather_S100000x1_S1700000x1_S1700000x1_1_0_n_n_0_1_11 (h2sArr m c)
            (Cert.ReferenceIdeal.Read.val_main_v19 (F := Ideal) (m ((c.tc : Thread nD τ).loc main_arg1))))))
      (broadcastInDim S100000x1 ![0, 1] bcast_S1x1_S100000x1_0_1
        (broadcastInDim S1x1 ![1] bcast_S1_S1x1_1 (m ((c.tc : Thread nD τ).loc main_arg5)))))
    shapeCasts_S100000x1_S100000

/-! ## Leaving the first region -/

theorem W2_out : W2 m ρ c (Proc.devRef .tc main_v13) = h1sArr m c := by
  refine (W2_arr m ρ c 3).trans ((final0 (V1 m ρ) c).trans ?_)
  show scaledProductArr (W1 m ρ c (Proc.devRef .tc main_arg0)) (W1 m ρ c (Proc.devRef .tc main_arg2))
    (W1 m ρ c (Proc.devRef .tc main_v12)) = _
  rw [W1_arg0, W1_arg2, W1_dis]
  rfl

theorem W2_dis : W2 m ρ c (Proc.devRef .tc main_v12) = disCol m c :=
  (W2_arr m ρ c 2).trans (((dat0 (V1 m ρ) c).arrAt_in 2 rfl _).trans ((A_eq0 (V1 m ρ) c 2).trans (W1_dis m ρ c)))
theorem W2_src : W2 m ρ c (Proc.devRef .tc main_v3)
    = Cert.ReferenceIdeal.Read.val_main_v3 (F := Ideal) (m ((c.tc : Thread nD τ).loc main_arg1)) :=
  (W2_of_ne m ρ c main_v3 (by decide)).trans (W1_src m ρ c)
theorem W2_dst : W2 m ρ c (Proc.devRef .tc main_v6)
    = Cert.ReferenceIdeal.Read.val_main_v6 (F := Ideal) (m ((c.tc : Thread nD τ).loc main_arg1)) :=
  (W2_of_ne m ρ c main_v6 (by decide)).trans (W1_dst m ρ c)
theorem W2_arg3 : W2 m ρ c (Proc.devRef .tc main_arg3) = m ((c.tc : Thread nD τ).loc main_arg3) :=
  (W2_of_ne m ρ c main_arg3 (by decide)).trans (W1_arg3 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)

/-! ## Entering the second region -/

theorem W3_agg : W3 m ρ c (Proc.devRef .tc main_v24) = aggArr m c := by
  show StableHlo.after hostOps1 (W2 m ρ c) (Proc.devRef .tc main_v24) = _
  after_results
  rw [W2_dst, W2_src, W2_out]
  rfl
theorem W3_b1 : W3 m ρ c (Proc.devRef .tc main_v25) = b1Row m c := by
  show StableHlo.after hostOps1 (W2 m ρ c) (Proc.devRef .tc main_v25) = _
  after_results
  rw [W2_arg3]
  rfl
theorem W3_dis : W3 m ρ c (Proc.devRef .tc main_v12) = disCol m c := by
  show StableHlo.after hostOps1 (W2 m ρ c) (Proc.devRef .tc main_v12) = _
  after_results
  exact W2_dis m ρ c
theorem W3_src : W3 m ρ c (Proc.devRef .tc main_v3)
    = Cert.ReferenceIdeal.Read.val_main_v3 (F := Ideal) (m ((c.tc : Thread nD τ).loc main_arg1)) := by
  show StableHlo.after hostOps1 (W2 m ρ c) (Proc.devRef .tc main_v3) = _
  after_results
  exact W2_src m ρ c
theorem W3_dst : W3 m ρ c (Proc.devRef .tc main_v6)
    = Cert.ReferenceIdeal.Read.val_main_v6 (F := Ideal) (m ((c.tc : Thread nD τ).loc main_arg1)) := by
  show StableHlo.after hostOps1 (W2 m ρ c) (Proc.devRef .tc main_v6) = _
  after_results
  exact W2_dst m ρ c
theorem W3_arg4 : W3 m ρ c (Proc.devRef .tc main_arg4) = m ((c.tc : Thread nD τ).loc main_arg4) := by
  show StableHlo.after hostOps1 (W2 m ρ c) (Proc.devRef .tc main_arg4) = _
  after_results
  exact W2_arg4 m ρ c
theorem W3_arg5 : W3 m ρ c (Proc.devRef .tc main_arg5) = m ((c.tc : Thread nD τ).loc main_arg5) := by
  show StableHlo.after hostOps1 (W2 m ρ c) (Proc.devRef .tc main_arg5) = _
  after_results
  exact W2_arg5 m ρ c

/-! ## Leaving the second region -/

theorem W4_out : W4 m ρ c (Proc.devRef .tc main_v26) = h2sArr m c := by
  refine (W4_arr m ρ c 4).trans ((final1 (V3 m ρ) c).trans ?_)
  show scaledOutputArr (W3 m ρ c (Proc.devRef .tc main_v24)) (W3 m ρ c (Proc.devRef .tc main_v25))
    (W3 m ρ c (Proc.devRef .tc main_v12)) (W3 m ρ c (Proc.devRef .tc main_arg4)) = _
  rw [W3_agg, W3_b1, W3_dis, W3_arg4]
  rfl
theorem W4_dis : W4 m ρ c (Proc.devRef .tc main_v12) = disCol m c :=
  (W4_arr m ρ c 2).trans (((dat1 (V3 m ρ) c).arrAt_in 2 rfl _).trans ((A_eq1 (V3 m ρ) c 2).trans (W3_dis m ρ c)))
theorem W4_src : W4 m ρ c (Proc.devRef .tc main_v3)
    = Cert.ReferenceIdeal.Read.val_main_v3 (F := Ideal) (m ((c.tc : Thread nD τ).loc main_arg1)) :=
  (W4_of_ne m ρ c main_v3 (by decide)).trans (W3_src m ρ c)
theorem W4_dst : W4 m ρ c (Proc.devRef .tc main_v6)
    = Cert.ReferenceIdeal.Read.val_main_v6 (F := Ideal) (m ((c.tc : Thread nD τ).loc main_arg1)) :=
  (W4_of_ne m ρ c main_v6 (by decide)).trans (W3_dst m ρ c)
theorem W4_arg5 : W4 m ρ c (Proc.devRef .tc main_arg5) = m ((c.tc : Thread nD τ).loc main_arg5) :=
  (W4_of_ne m ρ c main_arg5 (by decide)).trans (W3_arg5 m ρ c)

/-! ## The result -/

set_option maxHeartbeats 4000000 in
/-- THE KERNEL PROGRAM'S RESULT BUFFER at the end of the run. -/
theorem W5_result : W5 m ρ c (Proc.devRef .tc main_v41) = resultArr m c := by
  show StableHlo.after hostOps2 (W4 m ρ c) (Proc.devRef .tc main_v41) = _
  after_results_simp
  rw [W4_dis, W4_out, W4_src, W4_dst, W4_arg5]
  rfl

end Cert.KernelIdeal.HostValue

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.LibEdgeSum.lean ====
/-
  Sums of extended reals over a finite set of edges, scaled by a degree factor.

  A graph convolution with symmetric normalisation sums, over the edges `e` that end at a node `d`, a message
  `a e` scaled by `s e * c`, where `c` is the factor of `d` itself. The factor of the end node is the same for
  every edge of the sum, so it may be taken out of the sum — provided multiplication by it distributes over a
  sum of EXTENDED reals, which it does when `0 ≤ c` and `c ≠ ⊤`. The factor is `1 / √(number of edges ending at d)`:
  a positive real when some edge ends at `d`, and `⊤` exactly when none does — and then the sum is empty and both
  sides are zero. So the two forms agree for every family of extended reals, with no finiteness asked of the messages.
-/
import Idealize.ShloMosaic.PureOps.Ideal

noncomputable section

namespace Cert.Lib.EdgeSum

open Idealize.ShloMosaic

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

/-- A nonnegative extended real other than `⊤` scales a finite sum of extended reals term by term. -/
theorem sum_mul_of_nonneg_of_ne_top {ι : Type} (S : Finset ι) (t : ι → EReal) {c : EReal} (h0 : 0 ≤ c) (ht : c ≠ ⊤) :
    (∑ e ∈ S, t e) * c = ∑ e ∈ S, t e * c := by
  classical
  induction S using Finset.induction_on with
  | empty => simp
  | insert a S ha ih =>
    rw [Finset.sum_insert ha, Finset.sum_insert ha, EReal.right_distrib_of_nonneg_of_ne_top h0 ht, ih]

/-- A sum of ones over a finite set is its number of elements. -/
theorem sum_ones {ι : Type} (S : Finset ι) : ∑ _e ∈ S, (1 : EReal) = ((S.card : ℝ) : EReal) := by
  classical
  induction S using Finset.induction_on with
  | empty => simp
  | insert a S ha ih =>
    rw [Finset.sum_insert ha, ih, Finset.card_insert_of_notMem ha, Nat.cast_succ, EReal.coe_add, EReal.coe_one, add_comm]

/-- The degree factor of a node: the reciprocal square root of the number of edges in `S`, counted as a sum of ones
    onto zero. Either `S` is empty, or the factor is a nonnegative extended real other than `⊤`. -/
theorem rsqrt_count {ι : Type} (S : Finset ι) :
    S = ∅ ∨ (0 ≤ Ideal.rsqrt ((0 : EReal) + ∑ _e ∈ S, (1 : EReal)) ∧ Ideal.rsqrt ((0 : EReal) + ∑ _e ∈ S, (1 : EReal)) ≠ ⊤) := by
  rcases S.eq_empty_or_nonempty with h | h
  · exact Or.inl h
  · right
    have hs : (0 : EReal) + ∑ _e ∈ S, (1 : EReal) = ((S.card : ℝ) : EReal) := by
      rw [zero_add]; exact sum_ones S
    have hpos : (0 : ℝ) < S.card := by exact_mod_cast h.card_pos
    rw [hs, Ideal.rsqrt_coe, if_neg (not_lt.mpr hpos.le), if_neg hpos.ne']
    exact ⟨by exact_mod_cast (inv_nonneg.mpr (Real.sqrt_nonneg _)), EReal.coe_ne_top _⟩

/-- A factor that is nonnegative and not `⊤` may be moved from behind a sum of pre-scaled messages into each term. -/
theorem scaled_sum_of {ι : Type} (S : Finset ι) (a s : ι → EReal) {c : EReal} (h0 : 0 ≤ c) (ht : c ≠ ⊤) :
    ((0 : EReal) + ∑ e ∈ S, a e * s e) * c = (0 : EReal) + ∑ e ∈ S, a e * (s e * c) := by
  rw [zero_add, zero_add, sum_mul_of_nonneg_of_ne_top S _ h0 ht]
  exact Finset.sum_congr rfl fun e _ => mul_assoc _ _ _

/-- THE LAW OF THE NORMALISED AGGREGATION. Over the edges `S` that end at one node, whose degree factor is `c` (the
    reciprocal square root of their number): the sum of the pre-scaled messages `a e * s e`, scaled by `c` afterwards, is
    the sum of the messages each scaled by `s e * c`. -/
theorem scaled_sum {ι : Type} (S : Finset ι) (a s : ι → EReal) :
    ((0 : EReal) + ∑ e ∈ S, a e * s e) * Ideal.rsqrt ((0 : EReal) + ∑ _e ∈ S, (1 : EReal))
      = (0 : EReal) + ∑ e ∈ S, a e * (s e * Ideal.rsqrt ((0 : EReal) + ∑ _e ∈ S, (1 : EReal))) := by
  rcases rsqrt_count S with h | ⟨h0, ht⟩
  · subst h; simp
  · exact scaled_sum_of S a s h0 ht

end Cert.Lib.EdgeSum

end
-- ==== Proof.LibGcn.lean ====
/-
  A two-layer graph convolution with symmetric normalisation, in two arrangements.

  Over nodes `Fin N` and edges `Fin E`: `S n` is the set of edges that end at node `n`, `g e` the node edge `e` starts
  from, `dis n = 1 / √|S n|` the degree factor, `h n k` the first layer's transform of node `n`.
  The REFERENCE arrangement scales each message by both factors inside the sum over edges:
      layer 1   `o n k = (∑ e ∈ S n, h (g e) k * (dis (g e) * dis n)) + b1 k`,
      layer 2   `out d = (∑ e ∈ S d, hid (g e) * (dis (g e) * dis d)) + b2`,   `hid n = ∑ k, max (o n k) 0 * w2 k`.
  The KERNEL arrangement scales by the starting node's factor before the sum and by the end node's factor after it.
  The two agree on all extended reals: the end node's factor is the same for every edge of a sum, and it is either a
  nonnegative finite number, which distributes over any sum of extended reals, or `⊤`, and then no edge ends at the node.
-/
import proofs.«168948_j36541581754948_2_alg».proof.Proof.LibEdgeSum

noncomputable section

namespace Cert.Lib.Gcn

open Idealize.ShloMosaic Cert.Lib.EdgeSum

variable {N E C : Nat} (S : Fin N → Finset (Fin E)) (g : Fin E → Fin N) (h : Fin N → Fin C → EReal)
  (b1 w2 : Fin C → EReal) (b2 : EReal)

/-- The degree factor of node `n`. -/
def dis (n : Fin N) : EReal := Ideal.rsqrt ((0 : EReal) + ∑ _e ∈ S n, (1 : EReal))

/-- The hidden layer's output at node `n` contracted with the output weights, kernel arrangement. -/
def hidK (n : Fin N) : EReal :=
  ∑ k : Fin C, max (((0 : EReal) + ∑ e ∈ S n, h (g e) k * dis S (g e)) * dis S n + b1 k) 0 * w2 k

/-- The same, reference arrangement. -/
def hidR (n : Fin N) : EReal :=
  ∑ k : Fin C, max (((0 : EReal) + ∑ e ∈ S n, h (g e) k * (dis S (g e) * dis S n)) + b1 k) 0 * w2 k

theorem hidK_eq_hidR (n : Fin N) : hidK S g h b1 w2 n = hidR S g h b1 w2 n := by
  unfold hidK hidR
  refine Finset.sum_congr rfl fun k _ => ?_
  have e := scaled_sum (S n) (fun e => h (g e) k) (fun e => dis S (g e))
  unfold dis at e ⊢
  rw [e]

/-- The network's output at node `d`, kernel arrangement. -/
def outK (d : Fin N) : EReal :=
  dis S d * ((0 : EReal) + ∑ e ∈ S d, hidK S g h b1 w2 (g e) * dis S (g e)) + b2

/-- The same, reference arrangement. -/
def outR (d : Fin N) : EReal :=
  ((0 : EReal) + ∑ e ∈ S d, hidR S g h b1 w2 (g e) * (dis S (g e) * dis S d)) + b2

/-- THE TWO ARRANGEMENTS AGREE, node by node, on all extended reals. -/
theorem outK_eq_outR (d : Fin N) : outK S g h b1 w2 b2 d = outR S g h b1 w2 b2 d := by
  unfold outK outR
  have e := scaled_sum (S d) (fun e => hidK S g h b1 w2 (g e)) (fun e => dis S (g e))
  rw [mul_comm]
  unfold dis at e ⊢
  rw [e]
  refine congrArg (· + b2) (congrArg ((0 : EReal) + ·) (Finset.sum_congr rfl fun e' _ => ?_))
  rw [hidK_eq_hidR]

end Cert.Lib.Gcn

end
-- ==== Proof.RefValue.lean ====
/-
  The reference program's result, node by node, is the reference arrangement of the two-layer graph convolution.

  The reference's generated run gives its result as a composition of host operations of the arguments; the generated
  read-at-an-index lemmas open the elementwise operations, the broadcasts and the two matrix products. The gathers and
  the sums over edges are read here: a gather at the normalised row numbers `src` reads row `g e`; a sum over edges into
  node `d` runs over the edges whose `dst` is `d`, and for such an edge the gather of the degree factors at `dst` reads
  the factor of `d` itself.
-/
import proofs.«168948_j36541581754948_2_alg».proof.Proof.Gen.ReferenceIdeal.Read
import proofs.«168948_j36541581754948_2_alg».proof.Proof.LibRows
import proofs.«168948_j36541581754948_2_alg».proof.Proof.LibGcn

set_option maxRecDepth 16384

noncomputable section

namespace Cert.ReferenceIdeal.Layers

open Cert.ReferenceIdeal Cert.ReferenceIdeal.Gen Cert.ReferenceIdeal.Read
open Idealize.ShloMosaic Idealize.ShloMosaic.ValueIdx Idealize.SL.Sem
open Cert.Lib.Rows Cert.Lib.Gcn Cert.Lib.EdgeSum

variable (x0 : S100000x128.Idx → EReal) (x1 : IVec S2x1600000 32) (x2 : S64x128.Idx → EReal)
  (x3 : S64.Idx → EReal) (x4 : S1x64.Idx → EReal) (x5 : S1.Idx → EReal)

/-! ## The graph the edge list denotes, and the first layer's transform -/

/-- The edges that end at node `n`. -/
def edgesTo (n : Fin 100000) : Finset (Fin 1700000) :=
  edgesInto (N := 100000) (E := 1700000) (w := 32) (val_main_v9 (F := Ideal) x1) n

/-- The node edge `e` starts from. -/
def startOf (e : Fin 1700000) : Fin 100000 :=
  rowOf 100000 (by decide) (val_main_v19 (F := Ideal) x1 (ix2 e (0 : Fin 1)))

/-- The first layer's transform of node `n`, hidden unit `k`. -/
def transform (n : Fin 100000) (k : Fin 64) : EReal := ∑ q : Fin 128, x0 (ix2 n q) * x2 (ix2 k q)

/-! ## The program's dimension records are the row gathers and row scatters -/

theorem wf_ds0 : ScatterDims.WF ⟨1, ![100000]⟩ ⟨2, ![1700000, 1]⟩ ⟨1, ![1700000]⟩ [] [0] [0] 1 :=
  scatter_S100000_S1700000x1_S1700000_n_0_0_1.wf
theorem wf_ds64 : ScatterDims.WF ⟨2, ![100000, 64]⟩ ⟨2, ![1700000, 1]⟩ ⟨2, ![1700000, 64]⟩ [1] [0] [0] 1 :=
  scatter_S100000x64_S1700000x1_S1700000x64_1_0_0_1.wf
theorem wf_ds1 : ScatterDims.WF ⟨2, ![100000, 1]⟩ ⟨2, ![1700000, 1]⟩ ⟨2, ![1700000, 1]⟩ [1] [0] [0] 1 :=
  scatter_S100000x1_S1700000x1_S1700000x1_1_0_0_1.wf
theorem wf_dg0 : GatherDims.WF ⟨1, ![100000]⟩ ⟨2, ![1700000, 1]⟩ ⟨1, ![1700000]⟩ [] [0] [] [0] [] 1 ![1] :=
  gather_S100000_S1700000x1_S1700000_n_0_n_n_0_1_1.wf
theorem wf_dg64 : GatherDims.WF ⟨2, ![100000, 64]⟩ ⟨2, ![1700000, 1]⟩ ⟨2, ![1700000, 64]⟩ [1] [0] [] [0] [] 1 ![1, 64] :=
  gather_S100000x64_S1700000x1_S1700000x64_1_0_n_n_0_1_164.wf
theorem wf_dg1 : GatherDims.WF ⟨2, ![100000, 1]⟩ ⟨2, ![1700000, 1]⟩ ⟨2, ![1700000, 1]⟩ [1] [0] [] [0] [] 1 ![1, 1] :=
  gather_S100000x1_S1700000x1_S1700000x1_1_0_n_n_0_1_11.wf

theorem ds0_eq : scatter_S100000_S1700000x1_S1700000_n_0_0_1 = scatterEltsDims 100000 1700000 wf_ds0 := rfl
theorem ds64_eq : scatter_S100000x64_S1700000x1_S1700000x64_1_0_0_1 = scatterRowsDims 100000 1700000 64 wf_ds64 := rfl
theorem ds1_eq : scatter_S100000x1_S1700000x1_S1700000x1_1_0_0_1 = scatterRowsDims 100000 1700000 1 wf_ds1 := rfl
theorem dg0_eq : gather_S100000_S1700000x1_S1700000_n_0_n_n_0_1_1 = gatherEltsDims 100000 1700000 wf_dg0 := rfl
theorem dg64_eq : gather_S100000x64_S1700000x1_S1700000x64_1_0_n_n_0_1_164 = gatherRowsDims 100000 1700000 64 wf_dg64 := rfl
theorem dg1_eq : gather_S100000x1_S1700000x1_S1700000x1_1_0_n_n_0_1_11 = gatherRowsDims 100000 1700000 1 wf_dg1 := rfl

/-! ## The row numbers are computed once and used several times -/

theorem src34 : val_main_v34 (F := Ideal) x1 = val_main_v19 (F := Ideal) x1 := rfl
theorem src53 : val_main_v53 (F := Ideal) x1 = val_main_v19 (F := Ideal) x1 := rfl
theorem src68 : val_main_v68 (F := Ideal) x1 = val_main_v19 (F := Ideal) x1 := rfl
theorem dst40 : val_main_v40 (F := Ideal) x1 = val_main_v9 (F := Ideal) x1 := rfl
theorem dst73 : val_main_v73 (F := Ideal) x1 = val_main_v9 (F := Ideal) x1 := rfl
theorem ndst60 : val_main_v60 (F := Ideal) x1 = val_main_v26 (F := Ideal) x1 := rfl

/-! ## The degree factors -/

/-- The scatters and gathers of the program, as the operations they apply (equations between whole arrays). -/
theorem v10_eq : val_main_v10 (F := Ideal) x1
    = Ideal.hostScatterAdd scatter_S100000_S1700000x1_S1700000_n_0_0_1 (val_main_v8 (F := Ideal))
        (val_main_v9 (F := Ideal) x1) (val_main_v7 (F := Ideal)) := rfl
theorem v20_eq : val_main_v20 (F := Ideal) x1
    = Host.gather gather_S100000_S1700000x1_S1700000_n_0_n_n_0_1_1 (val_main_v11 (F := Ideal) x1) (val_main_v19 (F := Ideal) x1) := rfl
theorem v27_eq : val_main_v27 (F := Ideal) x1
    = Host.gather gather_S100000_S1700000x1_S1700000_n_0_n_n_0_1_1 (val_main_v11 (F := Ideal) x1) (val_main_v26 (F := Ideal) x1) := rfl
theorem v35_eq : val_main_v35 (F := Ideal) x0 x1 x2
    = Host.gather gather_S100000x64_S1700000x1_S1700000x64_1_0_n_n_0_1_164 (val_main_v13 (F := Ideal) x0 x2) (val_main_v19 (F := Ideal) x1) := rfl
theorem v41_eq : val_main_v41 (F := Ideal) x0 x1 x2
    = Ideal.hostScatterAdd scatter_S100000x64_S1700000x1_S1700000x64_1_0_0_1 (val_main_v39 (F := Ideal))
        (val_main_v9 (F := Ideal) x1) (val_main_v38 (F := Ideal) x0 x1 x2) := rfl
theorem v69_eq : val_main_v69 (F := Ideal) x0 x1 x2 x3 x4
    = Host.gather gather_S100000x1_S1700000x1_S1700000x1_1_0_n_n_0_1_11 (val_main_v47 (F := Ideal) x0 x1 x2 x3 x4) (val_main_v19 (F := Ideal) x1) := rfl
theorem v74_eq : val_main_v74 (F := Ideal) x0 x1 x2 x3 x4
    = Ideal.hostScatterAdd scatter_S100000x1_S1700000x1_S1700000x1_1_0_0_1 (val_main_v72 (F := Ideal))
        (val_main_v9 (F := Ideal) x1) (val_main_v71 (F := Ideal) x0 x1 x2 x3 x4) := rfl
/-- The second layer's symmetric norm is the first's. -/
theorem v62_eq : val_main_v62 (F := Ideal) x1 = val_main_v28 (F := Ideal) x1 := rfl

/-- The degree factor of node `n`. -/
theorem dis_apply (n : Fin 100000) : val_main_v11 (F := Ideal) x1 (ix1 n) = dis (edgesTo x1) n := by
  have hz : val_main_v8 (F := Ideal) (ix1 n) = 0 := by
    rw [val_main_v8_apply, val_main_cst_0_apply, Ideal.ofBits_def, Ideal.ofBits_zero_f32]
  have ho : ∀ e : Fin 1700000, val_main_v7 (F := Ideal) (ix1 e) = 1 := by
    intro e
    rw [val_main_v7_apply, val_main_cst_apply, Ideal.ofBits_def, ofBits_one]
  rw [val_main_v11_apply, Ideal.hostUnary_rsqrt_def, v10_eq, ds0_eq, scatterAddElts_apply, hz, dis, edgesTo]
  exact congrArg (fun s => Ideal.rsqrt ((0 : EReal) + s)) (Finset.sum_congr rfl fun e _ => ho e)

/-- For an edge that ends at `d`, the normalised row number of its end node is `d`. -/
theorem endRow (e : Fin 1700000) (d : Fin 100000) (he : e ∈ edgesTo x1 d) :
    rowOf 100000 (by decide) (val_main_v26 (F := Ideal) x1 (ix2 e (0 : Fin 1))) = d := by
  have hv := (mem_edgesInto _ d e).mp he
  rw [val_main_v9_apply] at hv
  rw [val_main_v26_apply]
  have hw : val_main_v25 (F := Ideal) x1 (idx_main_v26 (ix2 e (0 : Fin 1)))
      = val_main_v6 (F := Ideal) x1 (idx_main_v9 (ix2 e (0 : Fin 1))) :=
    wrap_of_toInt (val_main_v6 (F := Ideal) x1 (idx_main_v9 (ix2 e (0 : Fin 1)))) 100000#32 d.val hv
  rw [hw]
  exact rowOf_of_toInt _ _ d hv

/-- The gather of the degree factors at the edges' starting nodes. -/
theorem disSrc_apply (e : Fin 1700000) :
    val_main_v20 (F := Ideal) x1 (ix1 e) = dis (edgesTo x1) (startOf x1 e) := by
  rw [v20_eq, dg0_eq, gatherElts_apply (hN := by decide), dis_apply, startOf]

/-- The gather of the degree factors at the edges' end nodes, for an edge that ends at `d`. -/
theorem disDst_apply (e : Fin 1700000) (d : Fin 100000) (he : e ∈ edgesTo x1 d) :
    val_main_v27 (F := Ideal) x1 (ix1 e) = dis (edgesTo x1) d := by
  rw [v27_eq, dg0_eq, gatherElts_apply (hN := by decide), endRow x1 e d he, dis_apply]

/-- The symmetric norm of an edge that ends at `d`. -/
theorem norm_apply (e : Fin 1700000) (d : Fin 100000) (he : e ∈ edgesTo x1 d) :
    val_main_v28 (F := Ideal) x1 (ix1 e) = dis (edgesTo x1) (startOf x1 e) * dis (edgesTo x1) d := by
  rw [val_main_v28_apply, Ideal.mulf_def, disSrc_apply, disDst_apply x1 e d he]

/-! ## The first layer -/

/-- The host's first matrix product at node `n`, hidden unit `k`. -/
theorem transform_apply (n : Fin 100000) (k : Fin 64) :
    val_main_v13 (F := Ideal) x0 x2 (ix2 n k) = transform x0 x2 n k := by
  rw [val_main_v13_apply, transform]
  refine Finset.sum_congr rfl fun q _ => ?_
  rw [val_main_v12_apply]
  have e1 : lidx_main_v13 (ix2 n k) q = ix2 n q := funext fun a => by match a with | ⟨0, _⟩ => rfl | ⟨1, _⟩ => rfl
  have e2 : idx_main_v12 (ridx_main_v13 (ix2 n k) q) = ix2 k q := funext fun a => by match a with | ⟨0, _⟩ => rfl | ⟨1, _⟩ => rfl
  rw [e1, e2]

/-- The message of an edge that ends at `d`, first layer. -/
theorem msg1_apply (e : Fin 1700000) (k : Fin 64) (d : Fin 100000) (he : e ∈ edgesTo x1 d) :
    val_main_v38 (F := Ideal) x0 x1 x2 (ix2 e k)
      = transform x0 x2 (startOf x1 e) k * (dis (edgesTo x1) (startOf x1 e) * dis (edgesTo x1) d) := by
  have ei : idx_main_v36 (idx_main_v37 (ix2 e k)) = ix1 e := funext fun a => by match a with | ⟨0, _⟩ => rfl
  rw [val_main_v38_apply, Ideal.mulf_def, v35_eq, dg64_eq, gatherRows_apply (hN := by decide), transform_apply,
    val_main_v37_apply, val_main_v36_apply, ei, norm_apply x1 e d he, startOf]

/-- The first layer's output at node `n`, hidden unit `k`, before the rectifier. -/
theorem layer1_apply (n : Fin 100000) (k : Fin 64) :
    val_main_v44 (F := Ideal) x0 x1 x2 x3 (ix2 n k)
      = ((0 : EReal) + ∑ e ∈ edgesTo x1 n,
          transform x0 x2 (startOf x1 e) k * (dis (edgesTo x1) (startOf x1 e) * dis (edgesTo x1) n)) + x3 (ix1 k) := by
  have hz : val_main_v39 (F := Ideal) (ix2 n k) = 0 := by
    rw [val_main_v39_apply, val_main_cst_6_apply, Ideal.ofBits_def, Ideal.ofBits_zero_f32]
  have h43 : val_main_v43 (F := Ideal) x3 (ix2 n k) = x3 (ix1 k) := by
    rw [val_main_v43_apply, val_main_v42_apply]
    exact congrArg x3 (funext fun a => by match a with | ⟨0, _⟩ => rfl)
  rw [val_main_v44_apply, Ideal.addf_def, h43, v41_eq, ds64_eq, scatterAddRows_apply, hz, edgesTo]
  exact congrArg (fun s => ((0 : EReal) + s) + x3 (ix1 k))
    (Finset.sum_congr rfl fun e he => msg1_apply x0 x1 x2 e k n he)

/-- The rectifier. -/
theorem relu_apply (n : Fin 100000) (k : Fin 64) :
    val_main_v45 (F := Ideal) x0 x1 x2 x3 (ix2 n k) = max (val_main_v44 (F := Ideal) x0 x1 x2 x3 (ix2 n k)) 0 := by
  rw [val_main_v45_apply, Ideal.maximumf_def, val_main_call0_v0_apply, val_main_call0_cst_apply, Ideal.ofBits_def,
    Ideal.ofBits_zero_f32]

/-- The hidden layer contracted with the output weights, at node `n`. -/
theorem hid_apply (n : Fin 100000) :
    val_main_v47 (F := Ideal) x0 x1 x2 x3 x4 (ix2 n (0 : Fin 1)) = hidR (edgesTo x1) (startOf x1) (transform x0 x2) (fun k => x3 (ix1 k)) (fun k => x4 (ix2 (0 : Fin 1) k)) n := by
  rw [val_main_v47_apply, hidR]
  refine Finset.sum_congr rfl fun k _ => ?_
  have e1 : lidx_main_v47 (ix2 n (0 : Fin 1)) k = ix2 n k := funext fun a => by match a with | ⟨0, _⟩ => rfl | ⟨1, _⟩ => rfl
  have e2 : idx_main_v46 (ridx_main_v47 (ix2 n (0 : Fin 1)) k) = ix2 (0 : Fin 1) k :=
    funext fun a => by match a with | ⟨0, _⟩ => rfl | ⟨1, _⟩ => rfl
  rw [e1, val_main_v46_apply, e2, relu_apply, layer1_apply]

/-! ## The second layer -/

/-- The message of an edge that ends at `d`, second layer. -/
theorem msg2_apply (e : Fin 1700000) (d : Fin 100000) (he : e ∈ edgesTo x1 d) :
    val_main_v71 (F := Ideal) x0 x1 x2 x3 x4 (ix2 e (0 : Fin 1))
      = hidR (edgesTo x1) (startOf x1) (transform x0 x2) (fun k => x3 (ix1 k)) (fun k => x4 (ix2 (0 : Fin 1) k)) (startOf x1 e) * (dis (edgesTo x1) (startOf x1 e) * dis (edgesTo x1) d) := by
  have ei : idx_main_v70 (ix2 e (0 : Fin 1)) = ix1 e := funext fun a => by match a with | ⟨0, _⟩ => rfl
  rw [val_main_v71_apply, Ideal.mulf_def, v69_eq, dg1_eq, gatherRows_apply (hN := by decide), hid_apply,
    val_main_v70_apply, v62_eq, ei, norm_apply x1 e d he, startOf]

/-- THE REFERENCE'S RESULT at node `d`: the reference arrangement of the two-layer convolution. -/
theorem ref_apply (d : Fin 100000) :
    val_main_v78 (F := Ideal) x0 x1 x2 x3 x4 x5 (ix1 d) = outR (edgesTo x1) (startOf x1) (transform x0 x2) (fun k => x3 (ix1 k)) (fun k => x4 (ix2 (0 : Fin 1) k)) (x5 (ix1 (0 : Fin 1))) d := by
  have ei : idx_main_v78 (ix1 d) = ix2 d (0 : Fin 1) :=
    funext fun a => Fin.ext (by match a with | ⟨0, _⟩ => exact Nat.div_one _ | ⟨1, _⟩ => rfl)
  have hz : val_main_v72 (F := Ideal) (ix2 d (0 : Fin 1)) = 0 := by
    rw [val_main_v72_apply, val_main_cst_13_apply, Ideal.ofBits_def, Ideal.ofBits_zero_f32]
  have h76 : val_main_v76 (F := Ideal) x5 (ix2 d (0 : Fin 1)) = x5 (ix1 (0 : Fin 1)) := by
    rw [val_main_v76_apply, val_main_v75_apply]
    exact congrArg x5 (funext fun a => by match a with | ⟨0, _⟩ => rfl)
  rw [val_main_v78_apply, ei, val_main_v77_apply, Ideal.addf_def, h76, v74_eq, ds1_eq, scatterAddRows_apply, hz, outR, edgesTo]
  exact congrArg (fun s => ((0 : EReal) + s) + x5 (ix1 (0 : Fin 1)))
    (Finset.sum_congr rfl fun e he => msg2_apply x0 x1 x2 x3 x4 e d he)

end Cert.ReferenceIdeal.Layers

end
-- ==== Proof.KernelLayers.lean ====
/-
  The kernel program's result, node by node, is the kernel arrangement of the two-layer graph convolution.

  The arrays the run leaves are read at one index: the degree column is the degree factor; the first region's array is
  the transform scaled by the node's own factor; its gather-and-sum over the edges that end at a node is the
  pre-scaled aggregate; the second region's array rescales, biases, rectifies and contracts it and scales again; the
  last gather-and-sum, scaling and bias give the output. The graph (which edges end at a node, where an edge starts) is
  the one the reference reads off the same edge list.
-/
import proofs.«168948_j36541581754948_2_alg».proof.Proof.KernelValue
import proofs.«168948_j36541581754948_2_alg».proof.Proof.RefValue

set_option maxRecDepth 16384

noncomputable section

namespace Cert.KernelIdeal.Layers

open Cert.KernelIdeal Cert.KernelIdeal.Gen Cert.KernelIdeal.Arrays Cert.KernelIdeal.HostValue
open Idealize.ShloMosaic Idealize.ShloMosaic.TcCoe Idealize.ShloMosaic.ValueIdx Idealize.SL.Sem
open Cert.Lib.Rows Cert.Lib.Gcn Cert.Lib.EdgeSum
open Cert.ReferenceIdeal.Layers (edgesTo startOf transform dis_apply)

variable (m : (ℓ : Loc nD τ sig) → Buf (Elt Ideal) ℓ) (c : Dev nD)

/-- On the extended reals the host's accumulating scatter is the exact sum. -/
theorem scatterAdd_ideal {s si u : Shape} {w : Nat} (d : ScatterDims s si u) (x : s.Idx → EReal) (idx : IVec si w)
    (upd : u.Idx → EReal) : Host.scatterAdd (F := Ideal) (φ := .f32) d x idx upd = Ideal.hostScatterAdd d x idx upd := rfl

/-! ## The program's dimension records are the row gathers and row scatters -/

theorem wf_ds64 : ScatterDims.WF ⟨2, ![100000, 64]⟩ ⟨2, ![1700000, 1]⟩ ⟨2, ![1700000, 64]⟩ [1] [0] [0] 1 :=
  scatter_S100000x64_S1700000x1_S1700000x64_1_0_0_1.wf
theorem wf_ds1 : ScatterDims.WF ⟨2, ![100000, 1]⟩ ⟨2, ![1700000, 1]⟩ ⟨2, ![1700000, 1]⟩ [1] [0] [0] 1 :=
  scatter_S100000x1_S1700000x1_S1700000x1_1_0_0_1.wf
theorem wf_dg64 : GatherDims.WF ⟨2, ![100000, 64]⟩ ⟨2, ![1700000, 1]⟩ ⟨2, ![1700000, 64]⟩ [1] [0] [] [0] [] 1 ![1, 64] :=
  gather_S100000x64_S1700000x1_S1700000x64_1_0_n_n_0_1_164.wf
theorem wf_dg1 : GatherDims.WF ⟨2, ![100000, 1]⟩ ⟨2, ![1700000, 1]⟩ ⟨2, ![1700000, 1]⟩ [1] [0] [] [0] [] 1 ![1, 1] :=
  gather_S100000x1_S1700000x1_S1700000x1_1_0_n_n_0_1_11.wf
theorem ds64_eq : scatter_S100000x64_S1700000x1_S1700000x64_1_0_0_1 = scatterRowsDims 100000 1700000 64 wf_ds64 := rfl
theorem ds1_eq : scatter_S100000x1_S1700000x1_S1700000x1_1_0_0_1 = scatterRowsDims 100000 1700000 1 wf_ds1 := rfl
theorem dg64_eq : gather_S100000x64_S1700000x1_S1700000x64_1_0_n_n_0_1_164 = gatherRowsDims 100000 1700000 64 wf_dg64 := rfl
theorem dg1_eq : gather_S100000x1_S1700000x1_S1700000x1_1_0_n_n_0_1_11 = gatherRowsDims 100000 1700000 1 wf_dg1 := rfl

/-! ## The arrays at an index -/

/-- A splat of zero reads zero. -/
theorem zero64_apply (i : S100000x64.Idx) :
    broadcastInDim S100000x64 ![] bcast_S_S100000x64 (constant (F := Ideal) S_ .f32 0x00000000#32) i = 0 := by
  rw [broadcastInDim_apply _ bcast_S_S100000x64 _ i (fun a => a.elim0) (fun a => a.elim0), constant_apply, Ideal.ofBits_zero_f32]
theorem zero1_apply (i : S100000x1.Idx) :
    broadcastInDim S100000x1 ![] bcast_S_S100000x1 (constant (F := Ideal) S_ .f32 0x00000000#32) i = 0 := by
  rw [broadcastInDim_apply _ bcast_S_S100000x1 _ i (fun a => a.elim0) (fun a => a.elim0), constant_apply, Ideal.ofBits_zero_f32]

/-- The degree column at node `n` is the node's degree factor. -/
theorem disCol_apply (n : Fin 100000) : disCol m c (ix2 n (0 : Fin 1)) = dis (edgesTo (m ((c.tc : Thread nD τ).loc main_arg1) : IVec S2x1600000 32)) n := by
  rw [disCol, shapeCast_apply _ shapeCasts_S100000_S100000x1 (ix2 n (0 : Fin 1)) (ix1 n)
    (by rewrite [Shape.rowMajor_val_one, Shape.rowMajor_val_two]; show n.val = n.val * 1 + 0; omega), dis_apply]

/-- The first region's array: the transform scaled by the node's own factor. -/
theorem h1s_apply (n : Fin 100000) (k : Fin 64) :
    h1sArr m c (ix2 n k) = transform (m ((c.tc : Thread nD τ).loc main_arg0) : S100000x128.Idx → EReal) (m ((c.tc : Thread nD τ).loc main_arg2) : S64x128.Idx → EReal) n k * dis (edgesTo (m ((c.tc : Thread nD τ).loc main_arg1) : IVec S2x1600000 32)) n := by
  rw [h1sArr, scaledProductArr_apply, scaledProduct, disCol_apply, transform]

/-- The first aggregate: over the edges that end at `n`, the starting nodes' pre-scaled transforms. -/
theorem agg_apply (n : Fin 100000) (k : Fin 64) :
    aggArr m c (ix2 n k)
      = (0 : EReal) + ∑ e ∈ edgesTo (m ((c.tc : Thread nD τ).loc main_arg1) : IVec S2x1600000 32) n, transform (m ((c.tc : Thread nD τ).loc main_arg0) : S100000x128.Idx → EReal) (m ((c.tc : Thread nD τ).loc main_arg2) : S64x128.Idx → EReal) (startOf (m ((c.tc : Thread nD τ).loc main_arg1) : IVec S2x1600000 32) e) k * dis (edgesTo (m ((c.tc : Thread nD τ).loc main_arg1) : IVec S2x1600000 32)) (startOf (m ((c.tc : Thread nD τ).loc main_arg1) : IVec S2x1600000 32) e) := by
  rw [aggArr, scatterAdd_ideal, ds64_eq, scatterAddRows_apply, zero64_apply, edgesTo]
  exact congrArg (fun s => (0 : EReal) + s) (Finset.sum_congr rfl fun e _ => by
    rw [extf_apply, dg64_eq, gatherRows_apply (hN := by decide), h1s_apply, startOf])

/-- The bias row at hidden unit `k`. -/
theorem b1Row_apply (k : Fin 64) : b1Row m c (ix2 (0 : Fin 1) k) = (m ((c.tc : Thread nD τ).loc main_arg3) : S64.Idx → EReal) (ix1 k) := by
  rw [b1Row, shapeCast_apply _ shapeCasts_S64_S1x64 (ix2 (0 : Fin 1) k) (ix1 k)
    (by rewrite [Shape.rowMajor_val_one, Shape.rowMajor_val_two]; show k.val = 0 * 64 + k.val; omega)]

/-- The second region's array: the hidden layer contracted with the output weights, scaled by the node's own factor. -/
theorem h2s_apply (n : Fin 100000) :
    h2sArr m c (ix2 n (0 : Fin 1)) = hidK (edgesTo (m ((c.tc : Thread nD τ).loc main_arg1) : IVec S2x1600000 32)) (startOf (m ((c.tc : Thread nD τ).loc main_arg1) : IVec S2x1600000 32)) (transform (m ((c.tc : Thread nD τ).loc main_arg0) : S100000x128.Idx → EReal) (m ((c.tc : Thread nD τ).loc main_arg2) : S64x128.Idx → EReal)) (fun k => (m ((c.tc : Thread nD τ).loc main_arg3) : S64.Idx → EReal) (ix1 k)) (fun k => (m ((c.tc : Thread nD τ).loc main_arg4) : S1x64.Idx → EReal) (ix2 (0 : Fin 1) k)) n * dis (edgesTo (m ((c.tc : Thread nD τ).loc main_arg1) : IVec S2x1600000 32)) n := by
  rw [h2sArr, scaledOutputArr_apply, scaledOutput, disCol_apply, hidK]
  refine congrArg (· * dis (edgesTo (m ((c.tc : Thread nD τ).loc main_arg1) : IVec S2x1600000 32)) n) (Finset.sum_congr rfl fun k _ => ?_)
  rw [agg_apply, b1Row_apply]

/-- THE KERNEL PROGRAM'S RESULT at node `d`: the kernel arrangement of the two-layer convolution. -/
theorem result_apply (d : Fin 100000) :
    resultArr m c (ix1 d) = outK (edgesTo (m ((c.tc : Thread nD τ).loc main_arg1) : IVec S2x1600000 32)) (startOf (m ((c.tc : Thread nD τ).loc main_arg1) : IVec S2x1600000 32)) (transform (m ((c.tc : Thread nD τ).loc main_arg0) : S100000x128.Idx → EReal) (m ((c.tc : Thread nD τ).loc main_arg2) : S64x128.Idx → EReal)) (fun k => (m ((c.tc : Thread nD τ).loc main_arg3) : S64.Idx → EReal) (ix1 k)) (fun k => (m ((c.tc : Thread nD τ).loc main_arg4) : S1x64.Idx → EReal) (ix2 (0 : Fin 1) k)) ((m ((c.tc : Thread nD τ).loc main_arg5) : S1.Idx → EReal) (ix1 (0 : Fin 1))) d := by
  have hb : broadcastInDim S100000x1 ![0, 1] bcast_S1x1_S100000x1_0_1
      (broadcastInDim S1x1 ![1] bcast_S1_S1x1_1 (m ((c.tc : Thread nD τ).loc main_arg5))) (ix2 d (0 : Fin 1))
      = (m ((c.tc : Thread nD τ).loc main_arg5) : S1.Idx → EReal) (ix1 (0 : Fin 1)) := by
    rw [broadcastInDim_apply _ bcast_S1x1_S100000x1_0_1 _ (ix2 d (0 : Fin 1)) (ix2 (0 : Fin 1) (0 : Fin 1))
        (fun a => match a with
          | ⟨0, _⟩ => by show 0 = if (1 : Nat) = 1 then 0 else d.val; rw [if_pos rfl]
          | ⟨1, _⟩ => by show 0 = if (1 : Nat) = 1 then 0 else 0; rw [if_pos rfl]),
      broadcastInDim_apply _ bcast_S1_S1x1_1 _ (ix2 (0 : Fin 1) (0 : Fin 1)) (ix1 (0 : Fin 1))
        (fun a => match a with
          | ⟨0, _⟩ => by show 0 = if (1 : Nat) = 1 then 0 else 0; rw [if_pos rfl])]
  rw [resultArr, shapeCast_apply _ shapeCasts_S100000x1_S100000 (ix1 d) (ix2 d (0 : Fin 1))
    (by rewrite [Shape.rowMajor_val_one, Shape.rowMajor_val_two]; show d.val * 1 + 0 = d.val; omega),
    addf_apply, mulf_apply, hb, disCol_apply, scatterAdd_ideal, ds1_eq, scatterAddRows_apply, zero1_apply, outK, edgesTo]
  exact congrArg (fun s => dis (fun n => edgesInto (N := 100000) (E := 1700000) (w := 32)
      (Cert.ReferenceIdeal.Read.val_main_v9 (F := Ideal) (m ((c.tc : Thread nD τ).loc main_arg1) : IVec S2x1600000 32)) n) d * ((0 : EReal) + s) + (m ((c.tc : Thread nD τ).loc main_arg5) : S1.Idx → EReal) (ix1 (0 : Fin 1)))
    (Finset.sum_congr rfl fun e _ => by
      rw [dg1_eq, gatherRows_apply (hN := by decide), h2s_apply, startOf])

end Cert.KernelIdeal.Layers

end
-- ==== Proof.lean ====
/-
  A two-layer graph convolution (GCN) on 100000 nodes and 1600000 edges plus one loop per node: the kernel program
  against its plain reference, equal as extended reals.

  Both programs read the edge list into starting nodes `src` and end nodes `dst`, count the edges ending at each node
  and take `dis = 1 / √count`. The reference computes, layer by layer, `∑_{e : dst e = d} h[src e] * (dis[src e] * dis[d]) + b`
  with `h = x · Wᵀ`, a rectifier between the layers. The kernel program moves the two factors out of the sum over edges:
  its first region stores `(x · W1ᵀ) * dis`, the host gathers and sums, its second region stores
  `(relu(agg * dis + b1) · W2ᵀ) * dis`, the host gathers and sums again and scales by `dis` once more before adding `b2`.
  The two arrangements agree on ALL extended reals, with no finiteness asked of the inputs: the factor taken out of a sum
  is the end node's, the same for every edge of the sum; it is a nonnegative finite number, which distributes over any sum
  of extended reals, unless no edge ends at the node — and then the sum is empty (Proof/LibEdgeSum.lean, Proof/LibGcn.lean).

  The pieces: the kernel program's run with its result named (Proof/RunValue.lean), each region's output array as a
  function of the arrays it was entered with (Proof/KernelBlocks.lean, Proof/KernelArrays.lean), the host operations
  between them (Proof/KernelValue.lean), the result read node by node (Proof/KernelLayers.lean); the reference's result
  read node by node (Proof/RefValue.lean); rows gathered at and summed into integer row numbers (Proof/LibRows.lean).
  The idealization rewrote no operation, so it is preserved trivially.
-/
import proofs.«168948_j36541581754948_2_alg».proof.Defs
import proofs.«168948_j36541581754948_2_alg».proof.Proof.Gen.Kernel
import proofs.«168948_j36541581754948_2_alg».proof.Proof.Gen.Kernel.Skeleton
import proofs.«168948_j36541581754948_2_alg».proof.Proof.Gen.Kernel.Launch
import proofs.«168948_j36541581754948_2_alg».proof.Proof.Gen.Kernel.Points
import proofs.«168948_j36541581754948_2_alg».proof.Proof.Gen.Kernel.Frame
import proofs.«168948_j36541581754948_2_alg».proof.Proof.Gen.KernelIdeal
import proofs.«168948_j36541581754948_2_alg».proof.Proof.Gen.KernelIdeal.Skeleton
import proofs.«168948_j36541581754948_2_alg».proof.Proof.Gen.KernelIdeal.Launch
import proofs.«168948_j36541581754948_2_alg».proof.Proof.Gen.KernelIdeal.Points
import proofs.«168948_j36541581754948_2_alg».proof.Proof.Gen.KernelIdeal.Frame
import proofs.«168948_j36541581754948_2_alg».proof.Proof.Gen.ReferenceIdeal
import proofs.«168948_j36541581754948_2_alg».proof.Proof.Gen.Pre_finite_inputs
import proofs.«168948_j36541581754948_2_alg».proof.Proof.Gen.ReferenceIdeal.Run
import proofs.«168948_j36541581754948_2_alg».proof.Proof.Gen.ReferenceIdeal.Read
import proofs.«168948_j36541581754948_2_alg».proof.Proof.RunValue
import proofs.«168948_j36541581754948_2_alg».proof.Proof.KernelLayers
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Node by node the reference's result is the reference arrangement, the kernel program's the kernel arrangement, of one
    two-layer convolution over the same graph, and the two arrangements agree. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v78 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.HostValue.resultArr m c := by
  funext i
  obtain ⟨d, rfl⟩ : ∃ d : Fin 100000, i = ix1 d := ⟨i 0, eq_ix1 i⟩
  exact (Cert.ReferenceIdeal.Layers.ref_apply _ _ _ _ _ _ d).trans
    ((Cert.Lib.Gcn.outK_eq_outR _ _ _ _ _ _ d).symm.trans (Cert.KernelIdeal.Layers.result_apply m c d).symm)

/-- From memories that agree on the arguments both idealized programs run, and end with the same result. -/
theorem algebraic : Cert.algebraic_KernelIdeal_ReferenceIdeal := by
  intro m ρ m' ρ' _ hagree
  refine ⟨fun c => Cert.KernelIdeal.HostValue.resultArr m c, ?_, ?_⟩
  · exact (θ_run Cert.KernelIdeal.defs _ _).mono
      (fun _ h c => ⟨(h c).1.trans (Cert.KernelIdeal.HostValue.W5_result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v78_eq, (hagree c).1, (hagree c).2.1, (hagree c).2.2.1, (hagree c).2.2.2.1,
      (hagree c).2.2.2.2.1, (hagree c).2.2.2.2.2]
    exact result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
